-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 20
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S1x64, .f32⟩
  | .hbm, ⟨19, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LinearRelu.lean ====
/-
  The specification. One dense layer followed by a rectifier, over an array of 100000 rows of 64 features:
  for an array `h`, a weight matrix `w` stored output-major (row `c` of `w` holds the weights of output `c`)
  and a bias `b`, the entry at row `r` and column `c` is

      max (∑ k, h[r, k] · w[c, k] + b[c]) 0

  on the extended reals. Both programs compute this function of the same aggregated array: the kernel block of
  10000 rows by block, multiplying by the transposed weights on the matrix unit into a zero accumulator; the
  reference with one whole product against the transposed weights. On the extended reals the two are the same
  sum of the same 64 products, term by term, so no law beyond reading each operation at an index is needed, and
  in particular nothing that would ask the entries to be finite.
-/
import Idealize.ShloMosaic.PureOps.Ideal
import Idealize.ShloMosaic.Lib.ValueIdx

noncomputable section

namespace Cert.LinearRelu

open Idealize.ShloMosaic Idealize.ShloMosaic.ValueIdx

/-- The layer's entry at row `r`, column `c`, from row `r` of the input, row `c` of the weights and entry `c`
    of the bias: the inner product plus the bias, cut off below at zero. -/
def entry (hrow : Fin 64 → EReal) (wrow : Fin 64 → EReal) (bc : EReal) : EReal :=
  max ((∑ k : Fin 64, hrow k * wrow k) + bc) 0

/-- The whole layer: `relu (h · wᵀ + b)` over 100000 rows, index by index. -/
def layer (h : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun i => entry (fun k => h (ix2 (i 0) k)) (fun k => w (ix2 (i 1) k)) (b (ix1 (i 1)))

/-- The layer read at the index with coordinates `r`, `c`. -/
theorem layer_apply (h : (⟨2, ![100000, 64]⟩ : Shape).Idx → EReal) (w : (⟨2, ![64, 64]⟩ : Shape).Idx → EReal)
    (b : (⟨1, ![64]⟩ : Shape).Idx → EReal) (r : Fin 100000) (c : Fin 64) :
    layer h w b (ix2 r c) = entry (fun k => h (ix2 r k)) (fun k => w (ix2 c k)) (b (ix1 c)) := rfl

end Cert.LinearRelu

end
-- ==== Proof.Aggregate.lean ====
/-
  The aggregation, named once. Each node's aggregated feature row is the sum of the feature rows of the sources of
  its incoming edges: the source indices are wrapped (a negative index counts from the end), the rows of the feature
  array are gathered at them, and the gathered rows are scatter-added into an array of zeros at the destination
  indices. Both programs perform these same operations on the same three arguments; `aggregate` is that term as
  the kernel's program spells it, and it is never read at an index: it is shown to be what the kernel's region
  finds in its first window's buffer, and to be the array the reference multiplies.
-/
import proofs.«161754_j83683142795703_1_alg».proof.Proof.Gen.KernelIdeal.Frame
import proofs.«161754_j83683142795703_1_alg».proof.Proof.Gen.ReferenceIdeal.Read
import Idealize.ShloMosaic.Lib.StableHlo.Run

noncomputable section

namespace Cert.Aggregate

open Idealize.ShloMosaic Idealize.ShloMosaic.TcCoe Idealize.SL.Sem Idealize.ShloMosaic.StableHlo

section
open Cert.KernelIdeal Cert.KernelIdeal.Facts₀

/-- The aggregated array of the features `x0`, the edge sources `x1` and the edge destinations `x2`. -/
def aggregate (x0 : FVec Ideal S100000x64 .f32) (x1 x2 : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x2)
    (Host.gather gather_S100000x64_S1600000x1_S1600000x64_1_0_n_n_0_1_164 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- What the kernel's region finds in its first window's buffer is the aggregated array of the launch contents of
    the first three arguments: the host operations before the region, composed. -/
theorem region_finds (m : (ℓ : Loc nD τ sig) → Buf (Elt Ideal) ℓ) (c : Dev nD) :
    (Gen.V m c (Pipeline.arrRef spec0 0) : S100000x64.Idx → EReal)
      = aggregate (m ((c : Thread nD τ).loc main_arg0)) (m ((c : Thread nD τ).loc main_arg1))
          (m ((c : Thread nD τ).loc main_arg2)) := by
  show (Gen.V m c main_v9 : S100000x64.Idx → EReal) = _
  dsimp only [Gen.V, Gen.hostOps0]
  after_results
  unfold aggregate
  rfl

end

/-- The reference aggregates with the same operations: its aggregated array is the same term. -/
theorem reference_aggregates (x0 : FVec Ideal Cert.KernelIdeal.S100000x64 .f32) (x1 x2 : IVec Cert.KernelIdeal.S1600000 32) :
    Cert.ReferenceIdeal.Read.val_main_v9 (F := Ideal) x0 x1 x2 = aggregate x0 x1 x2 := by
  unfold aggregate Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rfl

end Cert.Aggregate

end
-- ==== Proof.KernelBlock.lean ====
/-
  What the kernel's body computes on one block. The body loads a block `x0` of 10000 rows of the aggregated
  array, the whole 64 × 64 weight matrix `x1` and the bias as one row `x2`, and stores

      max (x0 · x1ᵀ + x2) 0

  where the product runs on the matrix unit into a zero accumulator, both factors narrowed to bf16 on the way
  in. On the extended reals the narrowing is the identity and a product into a zero accumulator is the plain sum
  over the contracted axis, so the stored entry at row `p`, column `q` of the block is the layer's entry
  (`LinearRelu.entry`) of row `p` of `x0`, row `q` of `x1` and entry `q` of the bias row: the transposed
  weights read at `(k, q)` are the weights at `(q, k)`, and the bias row broadcast over the rows reads its
  one row at `q`.
-/
import proofs.«161754_j83683142795703_1_alg».proof.Proof.Gen.KernelIdeal.Skeleton
import proofs.«161754_j83683142795703_1_alg».proof.Proof.LinearRelu
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices

The product contracts axis 1 of the block with axis 0 of the transposed weights; its one contraction
coordinate is `k : Fin 64`. At the output index `(p, q)` the left operand is read at `(p, k)` and the right
at `(k, q)`. -/

/-- The left operand's row is the output's row. -/
theorem lhs_row (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contraction coordinate. -/
theorem lhs_col (i : S10000x64.Idx) (κ : dot_S10000x64_S64x64_S10000x64_1_0_0_1_n_n.contr.Idx) :
    (dot_S10000x64_S64x64_S10000x64_1_0_0_1_n_n.lhsIdx i κ 1).val = (κ ⟨0, by decide⟩).val :=
  dot_S10000x64_S64x64_S10000x64_1_0_0_1_n_n.lhsIdx_val_of_single rfl i κ

/-- The right operand's row is the contraction coordinate. -/
theorem rhs_row (i : S10000x64.Idx) (κ : dot_S10000x64_S64x64_S10000x64_1_0_0_1_n_n.contr.Idx) :
    (dot_S10000x64_S64x64_S10000x64_1_0_0_1_n_n.rhsIdx i κ 0).val = (κ ⟨0, by decide⟩).val :=
  dot_S10000x64_S64x64_S10000x64_1_0_0_1_n_n.rhsIdx_val_of_single rfl i κ

/-- The right operand's column is the output's column. -/
theorem rhs_col (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- At output `(p, q)` and contraction coordinate `k` the left operand is read at `(p, k)`. -/
theorem lhs_at (p : Fin 10000) (q k : Fin 64) :
    dot_S10000x64_S64x64_S10000x64_1_0_0_1_n_n.lhsIdx (ix2 p q)
      ((contrEquiv1 dot_S10000x64_S64x64_S10000x64_1_0_0_1_n_n 64 rfl rfl).symm k) = ix2 p k :=
  funext fun a => Fin.ext (by
    match a with
    | ⟨0, _⟩ => exact lhs_row _ _
    | ⟨1, _⟩ => exact (lhs_col _ _).trans (contrEquiv1_symm_val dot_S10000x64_S64x64_S10000x64_1_0_0_1_n_n 64 rfl rfl k))

/-- At output `(p, q)` and contraction coordinate `k` the right operand is read at `(k, q)`. -/
theorem rhs_at (p : Fin 10000) (q k : Fin 64) :
    dot_S10000x64_S64x64_S10000x64_1_0_0_1_n_n.rhsIdx (ix2 p q)
      ((contrEquiv1 dot_S10000x64_S64x64_S10000x64_1_0_0_1_n_n 64 rfl rfl).symm k) = ix2 k q :=
  funext fun a => Fin.ext (by
    match a with
    | ⟨0, _⟩ => exact (rhs_row _ _).trans (contrEquiv1_symm_val dot_S10000x64_S64x64_S10000x64_1_0_0_1_n_n 64 rfl rfl k)
    | ⟨1, _⟩ => exact rhs_col _ _)

/-! ## The stored value at an index -/

/-- The product of the block with the transposed weights, into the zero accumulator, at `(p, q)`: the sum over
    `k` of the block at `(p, k)` times the weights at `(q, k)`. The narrowing of both factors to bf16 and the
    same-shape cast of the block are the identity on the extended reals. -/
theorem product_apply (x0 : FVec Ideal S10000x64 .f32) (x1 : FVec Ideal S64x64 .f32) (p : Fin 10000) (q : Fin 64) :
    matmul dot_S10000x64_S64x64_S10000x64_1_0_0_1_n_n none
        (truncf .bf16 (shapeCast S10000x64 x0 shapeCasts_S10000x64_S10000x64) bitsLt_bf16_f32)
        (transpose S64x64 [1, 0] (truncf .bf16 x1 bitsLt_bf16_f32) transposes_S64x64_p1_0_S64x64)
        (constant S10000x64 .f32 0x00000000#32) (ix2 p q)
      = ∑ k : Fin 64, x0 (ix2 p k) * x1 (ix2 q k) := by
  rw [shapeCast_self]
  refine (Ideal.matmul_constant_zero_apply _ none _ _ (ix2 p q)).trans ?_
  rw [← Equiv.sum_comp (contrEquiv1 dot_S10000x64_S64x64_S10000x64_1_0_0_1_n_n 64 rfl rfl).symm]
  refine Finset.sum_congr rfl fun k _ => ?_
  rw [lhs_at p q k, rhs_at p q k, transpose_ix2_apply]
  rfl

/-- THE BLOCK'S ENTRY: what the body stores at row `p`, column `q` is the layer's entry of row `p` of the loaded
    block, row `q` of the weights and entry `q` of the bias row. -/
theorem stored_apply (x0 : Vec Ideal S10000x64 .f32) (x1 : Vec Ideal S64x64 .f32) (x2 : Vec Ideal S1x64 .f32)
    (p : Fin 10000) (q : Fin 64) :
    k0_pay1 (F := Ideal) x0 x1 x2 (ix2 p q)
      = Cert.LinearRelu.entry (fun k => x0 (ix2 p k)) (fun k => x1 (ix2 q k)) (x2 (ix2 (0 : Fin 1) q)) := by
  unfold k0_pay1 Cert.LinearRelu.entry
  simp only [maximumf_apply, addf_apply, broadcast_apply]
  show max (_ + _) (Ideal.ofBits .f32 0x00000000#32) = _
  rw [Ideal.ofBits_zero_f32, product_apply, broadcastTo_1b_ab_apply, shapeCast_self]

end Cert.KernelIdeal.Block

end
-- ==== Proof.KernelArray.lean ====
/-
  From the blocks to the whole array. The grid has ten points; point `t` reads rows `10000·t … 10000·t + 9999` of
  the aggregated array (window 0), the whole weight matrix (window 1) and the bias as one row (window 2, a buffer
  the host fills with the bias recast to 1 × 64 before the region), and writes back the same rows of the output
  (window 3). What a point writes back is the body's stored value on its input blocks (the generated value
  module), and the stored value at an index is the layer's entry of the rows it reads (`Block.stored_apply`); the
  input blocks are the arrays read through the windows' rectangles, whose offsets are decided once over the
  grid. So point `t` writes block `t` of `LinearRelu.layer` of the aggregated array, the weights and the bias;
  the ten blocks cover every row (row `r` lies in block `r / 10000`); hence the output array after the run IS the
  layer. The aggregated array is only ever read through the windows here: the per-point statement is proved for an
  arbitrary array in its place, given only that window 0's block reads it, and the buffer's contents at region entry
  are put in at the end, unopened.
-/
import proofs.«161754_j83683142795703_1_alg».proof.Proof.Gen.KernelIdeal.Value
import proofs.«161754_j83683142795703_1_alg».proof.Proof.KernelBlock
import proofs.«161754_j83683142795703_1_alg».proof.Proof.LinearRelu
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LinearRelu (layer entry)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-! ## The bias row the region finds -/

/-- Before the region the host recasts the bias, a vector of 64, as one row of 64. -/
theorem bias_row (c : Dev nD) :
    (V m c main_v10 : S1x64.Idx → EReal) = shapeCast S1x64 (m ((c : Thread nD τ).loc main_arg4)) shapeCasts_S64_S1x64 := by
  dsimp only [Gen.V, Gen.hostOps0]
  after_results
  rfl

/-- That row at column `q` is the bias at `q`. -/
theorem bias_row_apply (c : Dev nD) (q : Fin 64) :
    V m c main_v10 (ix2 (0 : Fin 1) q) = m ((c : Thread nD τ).loc main_arg4) (ix1 q) :=
  (congrFun (bias_row m c) (ix2 (0 : Fin 1) q)).trans (shapeCast_a_1a_apply _ shapeCasts_S64_S1x64 (0 : Fin 1) q)

/-! ## The stored value against the layer, at variables -/

/-- If a block's row `y 0` is the array's row `i 0`, the weights and the bias row are read at the column both
    indices share, then the value the body stores at `y` is the layer at `i`. -/
theorem stored_eq_layer (x0 : Vec Ideal S10000x64 .f32) (x1 : Vec Ideal S64x64 .f32) (x2 : Vec Ideal S1x64 .f32)
    (H : (⟨2, ![100000, 64]⟩ : Shape).Idx → EReal) (W : (⟨2, ![64, 64]⟩ : Shape).Idx → EReal)
    (b : (⟨1, ![64]⟩ : Shape).Idx → EReal) (y : S10000x64.Idx) (i : S100000x64.Idx)
    (h0 : ∀ k : Fin 64, x0 (ix2 (y 0) k) = H (ix2 (i 0) k))
    (h1 : ∀ k : Fin 64, x1 (ix2 (y 1) k) = W (ix2 (i 1) k))
    (h2 : x2 (ix2 (0 : Fin 1) (y 1)) = b (ix1 (i 1))) :
    k0_pay1 (F := Ideal) x0 x1 x2 y = layer H W b i :=
  (congrArg (k0_pay1 (F := Ideal) x0 x1 x2) (eq_ix2 y)).trans <|
    (Cert.KernelIdeal.Block.stored_apply x0 x1 x2 (y 0) (y 1)).trans <|
      (congr (congr (congrArg entry (funext h0)) (funext h1)) h2).trans <|
        (Cert.LinearRelu.layer_apply H W b (i 0) (i 1)).symm.trans (congrArg (layer H W b) (eq_ix2 i).symm)

/-! ## The windows' offsets, decided over the ten points -/

/-- The input rows move with the output rows; every other block offset is zero; the row-block number is at most 9. -/
theorem offsets : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Each of the ten row blocks is some point's. -/
theorem row_block_onto : ∀ q0 : Fin 10, ∃ t : Fin cfg0.N, win0_3.index t = ![q0.val, 0] :=
  (by decide +kernel : ∀ q0 : Fin 10, ∃ t : Fin grid0.N, win0_3.index t = ![q0.val, 0])

/-- What a window writes back at an index is the staged block at that index. -/
theorem written_apply (t : Fin cfg0.N) (X : S10000x64.Idx → EReal) (j : ((win0 3).xblock (grid0.coords t)).Idx) :
    (win0 3).cut (grid0.coords t) X j = X ((win0 3).xinj (grid0.coords t) j) := rfl

/-- An array read through point `t`'s output block, at an index of the block, is the array at the embedded index. -/
theorem read_apply (t : Fin cfg0.N) (G : S100000x64.Idx → EReal) (j : ((win0 3).xblock (grid0.coords t)).Idx) :
    ((cfg0.win 3).blk t).view.read (Elt Ideal) G j = G (((cfg0.win 3).blk t).view.emb j) := rfl

/-- An array read through point `t`'s block of window 0, at an index of the block, is the array at the embedded index. -/
theorem read_rows_apply (t : Fin cfg0.N) (A : S100000x64.Idx → EReal) (y : S10000x64.Idx) :
    ((cfg0.win 0).blk t).view.read (Elt Ideal) A y = A (((cfg0.win 0).blk t).view.emb y) := rfl

/-- Window 0's block at point `t` is the array its buffer holds at region entry, read through the block's rectangle. -/
theorem agg_block_apply (c : Dev nD) (t : Fin cfg0.N) (y : S10000x64.Idx) :
    iblk m c 0 t y = V m c (Pipeline.arrRef spec0 0) (((cfg0.win 0).blk t).view.emb y) := by
  rw [iblk]
  exact read_rows_apply t _ y

/-- Window 1's block is the weight matrix read through its rectangle. -/
theorem weights_block_apply (c : Dev nD) (t : Fin cfg0.N) (y : S64x64.Idx) :
    iblk m c 1 t y = V m c main_arg3 (((cfg0.win 1).blk t).view.emb y) := rfl

/-- Window 2's block is the bias row read through its rectangle. -/
theorem bias_block_apply (c : Dev nD) (t : Fin cfg0.N) (y : S1x64.Idx) :
    iblk m c 2 t y = V m c main_v10 (((cfg0.win 2).blk t).view.emb y) := rfl

/-! ## What a point writes back -/

/-- POINT `t` WRITES BACK block `t` of the layer of `H`, the weights and the bias, for any array `H` that window 0's
    block at `t` reads. -/
theorem flushed_eq_of (c : Dev nD) (t : Fin cfg0.N) (H : S100000x64.Idx → EReal)
    (hH : ∀ y : S10000x64.Idx, iblk m c 0 t y = H (((cfg0.win 0).blk t).view.emb y)) :
    (dats m 0 c).flushed 3 t = ((cfg0.win 3).blk t).view.read (Elt Ideal)
      (layer H (m ((c : Thread nD τ).loc main_arg3)) (m ((c : Thread nD τ).loc main_arg4))) := by
  rw [Cert.KernelIdeal.Value.flushed3]
  unfold out0_3
  rw [View.canon_unit_zero origin]
  simp only [View.ld_unit_zero (S := S10000x64) origin, View.ld_unit_zero (S := S64x64) origin,
    View.ld_unit_zero (S := S1x64) origin]
  obtain ⟨e0, e1, e2, e3, e4, e5, e6, e7⟩ := offsets t
  funext j
  refine (written_apply t _ j).trans (Eq.trans ?_ (read_apply t _ j).symm)
  have key := stored_eq_layer (iblk m c 0 t) (iblk m c 1 t) (iblk m c 2 t) H
    (m ((c : Thread nD τ).loc main_arg3)) (m ((c : Thread nD τ).loc main_arg4))
    ((win0 3).xinj (grid0.coords t) j) (((cfg0.win 3).blk t).view.emb j)
  refine key ?_ ?_ ?_
  · -- the block of the aggregated array: row `10000 · t + j 0`, column `k`
    intro k
    refine (hH _).trans (congrArg H (funext fun a => Fin.ext ?_))
    match a with
    | ⟨0, _⟩ =>
      show win0_0.index t (0 : Fin 2) * 10000 + 1 * (j 0).val = win0_3.index t (0 : Fin 2) * 10000 + 1 * (j 0).val
      omega
    | ⟨1, _⟩ =>
      show win0_0.index t (1 : Fin 2) * 64 + 1 * k.val = k.val
      omega
  · -- the weights: the whole matrix at every point, row `j 1`, column `k`
    intro k
    refine (weights_block_apply m c t _).trans ((congrFun (V_main_arg3 m c) _).trans
      (congrArg (m ((c : Thread nD τ).loc main_arg3)) (funext fun a => Fin.ext ?_)))
    match a with
    | ⟨0, _⟩ =>
      show win0_1.index t (0 : Fin 2) * 64 + 1 * (j 1).val = win0_3.index t (1 : Fin 2) * 64 + 1 * (j 1).val
      omega
    | ⟨1, _⟩ =>
      show win0_1.index t (1 : Fin 2) * 64 + 1 * k.val = k.val
      omega
  · -- the bias row at column `j 1`
    have e : ((cfg0.win 2).blk t).view.emb (ix2 (0 : Fin 1) (((win0 3).xinj (grid0.coords t) j) 1))
        = ix2 (0 : Fin 1) ((((cfg0.win 3).blk t).view.emb j) 1) := by
      funext a; apply Fin.ext
      match a with
      | ⟨0, _⟩ =>
        show win0_2.index t (0 : Fin 2) * 1 + 1 * 0 = 0
        omega
      | ⟨1, _⟩ =>
        show win0_2.index t (1 : Fin 2) * 64 + 1 * (j 1).val = win0_3.index t (1 : Fin 2) * 64 + 1 * (j 1).val
        omega
    exact (bias_block_apply m c t _).trans ((congrArg (V m c main_v10) e).trans (bias_row_apply m c _))

/-- With the aggregated array the region finds in window 0's buffer in place of `H`. -/
theorem flushed_eq (c : Dev nD) (t : Fin cfg0.N) :
    (dats m 0 c).flushed 3 t = ((cfg0.win 3).blk t).view.read (Elt Ideal)
      (layer (V m c (Pipeline.arrRef spec0 0)) (m ((c : Thread nD τ).loc main_arg3)) (m ((c : Thread nD τ).loc main_arg4))) :=
  flushed_eq_of m c t (V m c (Pipeline.arrRef spec0 0)) (agg_block_apply m c t)

/-! ## The ten blocks cover the array -/

/-- An index is in point `t`'s output block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v11).slice (win0_3.rect t)).set ↔ _
  rw [View.set_slice_whole, Rect.mem_set_unit]
  exact Iff.rfl

/-- Every index lies in the block of the point that owns its row: row `r` is in row block `r / 10000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := row_block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-! ## The array after the run -/

/-- THE OUTPUT ARRAY after the run is the layer of the aggregated array, the weights and the bias. -/
theorem final (c : Dev nD) :
    (dats m 0 c).arrAt 3 cfg0.N
      = layer (V m c (Pipeline.arrRef spec0 0)) (m ((c : Thread nD τ).loc main_arg3)) (m ((c : Thread nD τ).loc main_arg4)) :=
  (dats m 0 c).arrAt_eq_of_cover 3 _ (fun t _ => flushed_eq m c t) covered

/-- The kernel's run: every weakly fair execution ends with the result array at the layer and the arguments
    unchanged. -/
theorem run : θ_run defs (onTc (τ := τ) (main (F := Ideal))) ⟨m, fun _ => 0, ρ⟩ fun r => ∀ c : Dev nD,
      r.2.mem ((c : Thread nD τ).loc main_v11)
        = layer (V m c (Pipeline.arrRef spec0 0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Array

end
-- ==== Proof.Reference.lean ====
/-
  The reference is the layer. After the shared aggregation the reference transposes the weights, takes one whole
  product of the aggregated array with them, adds the bias broadcast over the rows and takes the maximum with zero.
  Read at row `r`, column `c`: the product is the sum over `k` of the aggregated array at `(r, k)` times the
  transposed weights at `(k, c)`, which are the weights at `(c, k)`; the broadcast bias is the bias at `c`; and the
  zero the maximum is taken with is the extended real `0`. That is `LinearRelu.layer` of the aggregated array,
  which stays one unopened term (the gather and the scatter-add are never read at an index).
-/
import proofs.«161754_j83683142795703_1_alg».proof.Proof.Gen.ReferenceIdeal.Read
import proofs.«161754_j83683142795703_1_alg».proof.Proof.LinearRelu
import Idealize.ShloMosaic.Lib.ValueIdx
import Idealize.ShloMosaic.PureOps.Ideal.Laws

noncomputable section

namespace Cert.ReferenceIdeal.Layer

open Cert.ReferenceIdeal Cert.ReferenceIdeal.Read Idealize.ShloMosaic Idealize.ShloMosaic.ValueIdx

/-- At output `(r, c)` and contraction coordinate `k` the product reads the aggregated array at `(r, k)`. -/
theorem left_at (r : Fin 100000) (c k : Fin 64) : lidx_main_v11 (ix2 r c) k = ix2 r k :=
  funext fun a => Fin.ext (by match a with | ⟨0, _⟩ => rfl | ⟨1, _⟩ => rfl)

/-- … and the weights, through the transpose, at `(c, k)`. -/
theorem right_at (r : Fin 100000) (c k : Fin 64) : idx_main_v10 (ridx_main_v11 (ix2 r c) k) = ix2 c k :=
  funext fun a => Fin.ext (by match a with | ⟨0, _⟩ => rfl | ⟨1, _⟩ => rfl)

/-- The bias, broadcast to one row and then over all rows, is read at `c`. -/
theorem bias_at (r : Fin 100000) (c : Fin 64) : idx_main_v12 (idx_main_v13 (ix2 r c)) = ix1 c :=
  funext fun a => Fin.ext (by match a with | ⟨0, _⟩ => rfl)

/-- THE REFERENCE'S RESULT is the layer of the aggregated array, the weights and the bias. -/
theorem result_eq_layer (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v15 (F := Ideal) x0 x1 x2 x3 x4 = Cert.LinearRelu.layer (val_main_v9 (F := Ideal) x0 x1 x2) x3 x4 := by
  funext i
  obtain ⟨r, c, rfl⟩ : ∃ (r : Fin 100000) (c : Fin 64), i = ix2 r c := ⟨i 0, i 1, eq_ix2 i⟩
  rw [Cert.LinearRelu.layer_apply, val_main_v15_apply, val_main_v14_apply, val_main_v11_apply, val_main_v13_apply,
    val_main_v12_apply, val_main_call0_v0_apply, val_main_call0_cst_apply, bias_at]
  simp only [val_main_v10_apply, left_at, right_at]
  show max (_ + _) (Ideal.ofBits .f32 0x00000000#32) = _
  rw [Ideal.ofBits_zero_f32]
  rfl

end Cert.ReferenceIdeal.Layer

end
-- ==== Proof.lean ====
/-
  One graph-convolution step: sum the features of each node's in-neighbours, then apply a dense layer and a rectifier,

      out[v, c] = max (∑ k, (∑ over edges u → v of features[u, k]) · W[c, k] + b[c]) 0.

  Both programs aggregate on the host in the same way — the source indices wrapped, a gather of the feature rows,
  a scatter-add of them into an array of zeros at the destination indices: the same operations on the same arguments,
  so the aggregated array is one term on both sides (`Aggregate.region_finds`, `Aggregate.reference_aggregates`) and is
  never opened. The kernel then applies the layer block by
  block of 10000 rows on the matrix unit (factors narrowed to bf16, a zero accumulator); the reference applies it with
  one whole product against the transposed weights. On the extended reals, where narrowing is the identity and both
  products are the plain sum of 64 products, each side is `LinearRelu.layer` of the aggregated array, the weights and
  the bias (`Array.run`, `Layer.result_eq_layer`). No step uses that the inputs are finite.

  The three programs' runs (termination, no fault, arguments unchanged) are the generated frames; the idealization
  rewrote nothing, so its statement is `True`.
-/
import proofs.«161754_j83683142795703_1_alg».proof.Defs
import proofs.«161754_j83683142795703_1_alg».proof.Proof.Gen.Kernel
import proofs.«161754_j83683142795703_1_alg».proof.Proof.Gen.Kernel.Skeleton
import proofs.«161754_j83683142795703_1_alg».proof.Proof.Gen.Kernel.Launch
import proofs.«161754_j83683142795703_1_alg».proof.Proof.Gen.Kernel.Points
import proofs.«161754_j83683142795703_1_alg».proof.Proof.Gen.Kernel.Frame
import proofs.«161754_j83683142795703_1_alg».proof.Proof.Gen.KernelIdeal
import proofs.«161754_j83683142795703_1_alg».proof.Proof.Gen.KernelIdeal.Skeleton
import proofs.«161754_j83683142795703_1_alg».proof.Proof.Gen.KernelIdeal.Launch
import proofs.«161754_j83683142795703_1_alg».proof.Proof.Gen.KernelIdeal.Points
import proofs.«161754_j83683142795703_1_alg».proof.Proof.Gen.KernelIdeal.Frame
import proofs.«161754_j83683142795703_1_alg».proof.Proof.Gen.KernelIdeal.Value
import proofs.«161754_j83683142795703_1_alg».proof.Proof.Gen.ReferenceIdeal
import proofs.«161754_j83683142795703_1_alg».proof.Proof.Gen.ReferenceIdeal.Run
import proofs.«161754_j83683142795703_1_alg».proof.Proof.Gen.ReferenceIdeal.Read
import proofs.«161754_j83683142795703_1_alg».proof.Proof.Gen.Pre_finite_inputs
import proofs.«161754_j83683142795703_1_alg».proof.Proof.LinearRelu
import proofs.«161754_j83683142795703_1_alg».proof.Proof.Aggregate
import proofs.«161754_j83683142795703_1_alg».proof.Proof.KernelArray
import proofs.«161754_j83683142795703_1_alg».proof.Proof.Reference
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, the kernel's result array and the reference's are the layer of
    one aggregated array, the same weights and the same bias. -/
theorem algebraic : Cert.algebraic_KernelIdeal_ReferenceIdeal := by
  intro m ρ m' ρ' _ hagree
  refine ⟨fun c => Cert.LinearRelu.layer (Cert.KernelIdeal.Gen.V m c (Pipeline.arrRef Cert.KernelIdeal.spec0 0))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Layer.result_eq_layer,
    (hagree c).1, (hagree c).2.1, (hagree c).2.2.1, (hagree c).2.2.2.1, (hagree c).2.2.2.2,
    Cert.Aggregate.reference_aggregates, ← Cert.Aggregate.region_finds m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
